-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S1 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S8192x4096 : Shape := ⟨2, ![8192, 4096]⟩
abbrev S1x1 : Shape := ⟨2, ![1, 1]⟩
abbrev S1x16384 : Shape := ⟨2, ![1, 16384]⟩
abbrev S8192x16384 : Shape := ⟨2, ![8192, 16384]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩
abbrev S4x2048x16384 : Shape := ⟨3, ![4, 2048, 16384]⟩

abbrev nBuf : Space → Nat
  | .hbm => 10
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S1, .f32⟩
  | .hbm, ⟨3, _⟩ => ⟨S16384, .f32⟩
  | .hbm, ⟨4, _⟩ => ⟨S8192x4096, .f32⟩
  | .hbm, ⟨5, _⟩ => ⟨S8192x4096, .bf16⟩
  | .hbm, ⟨6, _⟩ => ⟨S1x1, .f32⟩
  | .hbm, ⟨7, _⟩ => ⟨S1x16384, .f32⟩
  | .hbm, ⟨8, _⟩ => ⟨S8192x16384, .f32⟩
  | .hbm, ⟨9, _⟩ => ⟨S4x2048x16384, .f32⟩
  | .local _ .vmem, ⟨0, _⟩ => ⟨S2048x512, .bf16⟩
  | .local _ .vmem, ⟨1, _⟩ => ⟨S2048x512, .bf16⟩
  | .local _ .vmem, ⟨2, _⟩ => ⟨S1024x512, .i32⟩
  | .local _ .vmem, ⟨3, _⟩ => ⟨S1024x512, .i32⟩
  | .local _ .vmem, ⟨4, _⟩ => ⟨S1x1, .f32⟩
  | .local _ .vmem, ⟨5, _⟩ => ⟨S1x1024, .f32⟩
  | .local _ .vmem, ⟨6, _⟩ => ⟨S1x1024, .f32⟩
  | .local _ .vmem, ⟨7, _⟩ => ⟨S2048x1024, .f32⟩
  | .local _ .vmem, ⟨8, _⟩ => ⟨S2048x1024, .f32⟩
  | .local _ .vmem, ⟨9, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S1_S1x1 : S1.ShapeCasts S1x1
  shapeCasts_S16384_S1x16384 : S16384.ShapeCasts S1x16384
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x16384_S4x2048x16384 : S8192x16384.ShapeCasts S4x2048x16384
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x4096.size a
  hwx0_1 : ∀ i : grid0.Coords, EltTy.bits .i32 = 32 ∨ (Rect.block (s := S16384x4096) S1024x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x16384.size a
  hwx0_4 : ∀ i : grid0.Coords, EltTy.bits .f32 = 32 ∨ (Rect.block (s := S8192x16384) S2048x1024.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S1x1 : Shape := ⟨2, ![1, 1]⟩
abbrev S4x2048x16384 : Shape := ⟨3, ![4, 2048, 16384]⟩
abbrev S1x1x16384 : Shape := ⟨3, ![1, 1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S1, .f32⟩
  | .hbm, ⟨3, _⟩ => ⟨S16384, .f32⟩
  | .hbm, ⟨4, _⟩ => ⟨S16384x4096, .f32⟩
  | .hbm, ⟨5, _⟩ => ⟨S1x1, .f32⟩
  | .hbm, ⟨6, _⟩ => ⟨S16384x4096, .f32⟩
  | .hbm, ⟨7, _⟩ => ⟨S16384x4096, .f32⟩
  | .hbm, ⟨8, _⟩ => ⟨S4x2048x16384, .f32⟩
  | .hbm, ⟨9, _⟩ => ⟨S1x1x16384, .f32⟩
  | .hbm, ⟨10, _⟩ => ⟨S4x2048x16384, .f32⟩
  | .hbm, ⟨11, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S16384x4096_0_1 : S1x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Found.lean ====
/-
  What each control case of the kernel body leaves behind, as a value of the blocks it was given.

  The body runs in one of three cases, by the position k of the grid point along the contracted axis:
    first chunk (k = 0):   the accumulator is reset to zero, then stepped;      it ends at  step 0 (inputs);
    middle chunks:         the accumulator is stepped from what the point before left;     step acc (inputs);
    last chunk (k = 7):    stepped likewise, and the output tile is stored:     close (step acc (inputs)) bias.
  Each statement below reads the stores the run of that case found back as that value, for any float instance: the one
  covering store's payload, whose loads read whole buffers (an accumulator read after a covering store reads that store).
-/
import proofs.«174439_j11570641895704_1_alg».proof.Proof.Gen.KernelIdeal.Frame
import Idealize.ShloMosaic.Lib.Pipeline.Value
import Idealize.ShloMosaic.Lib.Tactic

noncomputable section

namespace Cert.KernelIdeal.Found

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- First chunk: the accumulator ends at one step from the zero tile. -/
theorem acc_first (c : Dev nD) (i : grid0.Coords) (a3 : Memref sig .tc .vmem S2048x512 .bf16) (h3 : a3.IsWhole) (a4 : Memref sig .tc .vmem S1024x512 .i32) (h4 : a4.IsWhole) (a5 : Memref sig .tc .vmem S1x1 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : cond0_0 i) (hc1 : ¬cond0_1 i) (x0 : Vec F S2048x512 .bf16) (x1 : Vec F S1024x512 .i32) (x2 : Vec F S1x1 .f32) (x3 : Vec F S1x1024 .f32) :
    sout0_A_0 c i a3 h3 a4 h4 a5 h5 a6 h6 a7 h7 a8 h8 hc0 hc1 x0 x1 x2 x3 = k0_pay2 x2 x1 (k0_pay1 (F := F)) x0 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, h3.read_unread, h4.read_unread, h5.read_unread, h6.read_unread, h8.read_unread, View.ld_unit_zero (S := S1x1) hz, View.ld_unit_zero (S := S1024x512) hz, View.ld_unit_zero (S := S2048x1024) hz, View.ld_unit_zero (S := S2048x512) hz, View.ld_unit_zero (S := S1x1024) hz]

/-- Middle chunks: the accumulator ends at one step from what it held. -/
theorem acc_middle (c : Dev nD) (i : grid0.Coords) (a3 : Memref sig .tc .vmem S2048x512 .bf16) (h3 : a3.IsWhole) (a4 : Memref sig .tc .vmem S1024x512 .i32) (h4 : a4.IsWhole) (a5 : Memref sig .tc .vmem S1x1 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : ¬cond0_1 i) (x0 : Vec F S2048x512 .bf16) (x1 : Vec F S1024x512 .i32) (x2 : Vec F S1x1 .f32) (x3 : Vec F S1x1024 .f32) (xs0 : Vec F S2048x1024 .f32) :
    sout0_B_0 c i a3 h3 a4 h4 a5 h5 a6 h6 a7 h7 a8 h8 hc0 hc1 x0 x1 x2 x3 xs0 = k0_pay2 x2 x1 xs0 x0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz]
  simp only [View.readAt_eq_ld, h3.read_unread, h4.read_unread, h5.read_unread, h6.read_unread, h8.read_unread, View.ld_unit_zero (S := S1x1) hz, View.ld_unit_zero (S := S1024x512) hz, View.ld_unit_zero (S := S2048x1024) hz, View.ld_unit_zero (S := S2048x512) hz, View.ld_unit_zero (S := S1x1024) hz]

/-- Last chunk: the accumulator ends at one step from what it held, -/
theorem acc_last (c : Dev nD) (i : grid0.Coords) (a3 : Memref sig .tc .vmem S2048x512 .bf16) (h3 : a3.IsWhole) (a4 : Memref sig .tc .vmem S1024x512 .i32) (h4 : a4.IsWhole) (a5 : Memref sig .tc .vmem S1x1 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i) (x0 : Vec F S2048x512 .bf16) (x1 : Vec F S1024x512 .i32) (x2 : Vec F S1x1 .f32) (x3 : Vec F S1x1024 .f32) (xs0 : Vec F S2048x1024 .f32) :
    sout0_C_0 c i a3 h3 a4 h4 a5 h5 a6 h6 a7 h7 a8 h8 hc0 hc1 x0 x1 x2 x3 xs0 = k0_pay2 x2 x1 xs0 x0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h8.read_unread, View.ld_unit_zero (S := S1x1) hz, View.ld_unit_zero (S := S1024x512) hz, View.ld_unit_zero (S := S2048x1024) hz, View.ld_unit_zero (S := S2048x512) hz, View.ld_unit_zero (S := S1x1024) hz]

/-- and the output tile at that accumulator plus the bias row. -/
theorem out_last (c : Dev nD) (i : grid0.Coords) (a3 : Memref sig .tc .vmem S2048x512 .bf16) (h3 : a3.IsWhole) (a4 : Memref sig .tc .vmem S1024x512 .i32) (h4 : a4.IsWhole) (a5 : Memref sig .tc .vmem S1x1 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i) (x0 : Vec F S2048x512 .bf16) (x1 : Vec F S1024x512 .i32) (x2 : Vec F S1x1 .f32) (x3 : Vec F S1x1024 .f32) (xs0 : Vec F S2048x1024 .f32) :
    out0_C_4 c i a3 h3 a4 h4 a5 h5 a6 h6 a7 h7 a8 h8 hc0 hc1 x0 x1 x2 x3 xs0 = k0_pay3 (k0_pay2 x2 x1 xs0 x0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz, View.readCov_unit_zero (S := S2048x1024) _ hz]
  simp only [View.readAt_eq_ld, h3.read_unread, h4.read_unread, h5.read_unread, h6.read_unread, h8.read_unread, View.ld_unit_zero (S := S1x1) hz, View.ld_unit_zero (S := S1024x512) hz, View.ld_unit_zero (S := S2048x1024) hz, View.ld_unit_zero (S := S2048x512) hz, View.ld_unit_zero (S := S1x1024) hz]

end Cert.KernelIdeal.Found

end
-- ==== Proof.LibTransposedMatmul.lean ====
/-
  A matrix product against a TRANSPOSED right operand, into a zero accumulator, read at a row and a column.

  For dimension numbers that contract the left operand's columns with the right operand's COLUMNS (no batch axis) —
  the product  A Bᵀ  of an `[M, K]` matrix and an `[N, K]` matrix —, entry `(r, c)` accumulated into zero is the sum over
  `k` of `lhs (r, k) * rhs (c, k)` on the extended reals: the accumulator contributes `0`, and the contraction index,
  a rank-one index, is re-indexed by its one coordinate. Stated for any extents and float formats, with the dimension
  numbers given by their six lists, so that any printed record with these lists unifies.
-/
import Idealize.ShloMosaic.PureOps.Ideal.Laws
import Idealize.ShloMosaic.Lib.ValueIdx

namespace Cert.Lib.TransposedMatmul

open Idealize.ShloMosaic Idealize.ShloMosaic.ValueIdx

set_option backward.isDefEq.respectTransparency.types false in
/-- The product of `[M, K]` by the transpose of `[N, K]` into the zero splat, at `(r, c)`: `∑ k, lhs (r, k) * rhs (c, k)`. -/
theorem matmul_zero_apply {M K N : ℕ} {φ₁ φ₂ : FTy}
    (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (lhs : FVec Ideal ⟨2, ![M, K]⟩ φ₁) (rhs : FVec Ideal ⟨2, ![N, K]⟩ φ₂)
    (r : Fin M) (c : Fin N) :
    FloatOps.matmul d prec lhs rhs (constant ⟨2, ![M, N]⟩ .f32 0x00000000#32) (ix2 r c)
      = ∑ k : Fin K, lhs (ix2 r k) * rhs (ix2 c k) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : (⟨[1], [1], [0], [0], [], [], wf⟩ : DotDims ⟨2, ![M, K]⟩ ⟨2, ![N, K]⟩ ⟨2, ![M, N]⟩).lhsIdx (ix2 r c)
      ((contrEquiv1 (⟨[1], [1], [0], [0], [], [], wf⟩ : DotDims ⟨2, ![M, K]⟩ ⟨2, ![N, K]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [1], [0], [0], [], [], wf⟩ : DotDims ⟨2, ![M, K]⟩ ⟨2, ![N, K]⟩ ⟨2, ![M, N]⟩).rhsIdx (ix2 r c)
      ((contrEquiv1 (⟨[1], [1], [0], [0], [], [], wf⟩ : DotDims ⟨2, ![M, K]⟩ ⟨2, ![N, K]⟩ ⟨2, ![M, N]⟩) K rfl rfl).symm k) = ix2 c k :=
    funext fun a => Fin.ext (by
      match a with
      | ⟨0, h0⟩ =>
        unfold DotDims.rhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.rhsIdx_val_of_single _ rfl _ _).trans hk)
  rw [el, er]

end Cert.Lib.TransposedMatmul
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.LibBlockedSum.lean ====
/-
  A finite sum accumulated block by block.

  A sum over `N = m · n` indices is taken in `m` consecutive blocks of `n`.  `blockSum hN f s` is the sum of block `s`,
  as a function of every natural number `s` (zero past the last block, which is never read), so that block sums can be
  indexed by a range of naturals — the form in which a run of grid points that accumulate into one resident tile hands
  them back.  The block sums over the range `0 … m - 1` add up to the whole sum, and so do the first `m - 1` of them
  added into zero followed by the last: the shape of an accumulator that is reset to zero, stepped through all blocks but
  the last, and closed by a final step that may add something more afterwards.  Only associativity and commutativity of
  addition are used, so the laws hold in any commutative additive monoid — on the extended reals whatever the summands.
-/
import Mathlib.Algebra.BigOperators.Fin
import Mathlib.Algebra.BigOperators.Intervals
import proofs.«174439_j11570641895704_1_alg».proof.Proof.LibSumBlocks

open scoped BigOperators

namespace Cert.Lib.BlockedSum

variable {β : Type*} [AddCommMonoid β] {m n N : ℕ}

/-- The sum of block `s` of a family over `N = m · n` indices: offsets `0 … n - 1` from `s · n`; zero for `s ≥ m`. -/
def blockSum (hN : m * n = N) (f : Fin N → β) (s : ℕ) : β :=
  if h : s < m then ∑ b : Fin n, f (SumBlocks.idx hN ⟨s, h⟩ b) else 0

/-- Inside the range, a block sum is the sum over the block's offsets. -/
theorem blockSum_of_lt (hN : m * n = N) (f : Fin N → β) (s : ℕ) (hs : s < m) :
    blockSum hN f s = ∑ b : Fin n, f (SumBlocks.idx hN ⟨s, hs⟩ b) := dif_pos hs

/-- The block sums over `0 … m - 1` add up to the whole sum. -/
theorem sum_range_blockSum (hN : m * n = N) (f : Fin N → β) :
    ∑ s ∈ Finset.range m, blockSum hN f s = ∑ k : Fin N, f k := by
  rw [Finset.sum_range, SumBlocks.sum_eq hN f]
  exact Finset.sum_congr rfl fun a _ => blockSum_of_lt hN f a.val a.isLt

/-- All blocks but the last added into zero, then the last block, are the whole sum. -/
theorem accumulated {e : ℕ} (hN : (e + 1) * n = N) (f : Fin N → β) :
    (0 + ∑ s ∈ Finset.range e, blockSum hN f s) + blockSum hN f e = ∑ k : Fin N, f k := by
  rw [zero_add, ← Finset.sum_range_succ, sum_range_blockSum hN f]

end Cert.Lib.BlockedSum
-- ==== Proof.Spec.lean ====
/-
  A linear layer over a dequantised weight matrix, and its contraction taken in chunks.

  The weight matrix is stored as integer codes q (o, d) with one scale s for the whole tensor; entry (o, d) of the real
  matrix is the code read signed times the scale. The layer maps activations x to  y (b, t, o) = ∑ d, x (b, t, d) · (q (o, d) · s) + bias o
  with d over the 4096 input features. A tiled evaluation works on the flattened activations (row p = b · 2048 + t), one
  [2048, 1024] output tile at a time, and takes the contraction in 8 chunks of 512 features, adding each chunk's partial
  dot product into an accumulator that starts at zero. Addition on the extended reals is associative and commutative
  whatever the terms are, so the accumulated chunks are the whole sum: no finiteness of the inputs is needed.
-/
import Idealize.ShloMosaic.PureOps.Ideal
import Idealize.ShloMosaic.Lib.ValueIdx
import proofs.«174439_j11570641895704_1_alg».proof.Proof.LibBlockedSum

noncomputable section

namespace Cert.DequantLinear

open Idealize.ShloMosaic Idealize.ShloMosaic.ValueIdx
open scoped BigOperators

/-- One term of the contraction: an activation entry times the dequantised weight entry (the code read signed, times
    the scale). -/
def term (a : EReal) (code : BitVec 32) (scale : EReal) : EReal :=
  a * (FloatOps.sitofp (F := Ideal) .f32 code * scale)

/-- The layer at batch entry b, position t, output feature o. -/
def linearAt (x : FVec Ideal ⟨3, ![4, 2048, 4096]⟩ .f32) (q : IVec ⟨2, ![16384, 4096]⟩ 32) (s : FVec Ideal ⟨1, ![1]⟩ .f32)
    (bias : FVec Ideal ⟨1, ![16384]⟩ .f32) (b : Fin 4) (t : Fin 2048) (o : Fin 16384) : EReal :=
  (∑ d : Fin 4096, term (x (ix3 b t d)) (q (ix2 o d)) (s (ix1 0))) + bias (ix1 o)

/-- The layer as an array. -/
def linear (x : FVec Ideal ⟨3, ![4, 2048, 4096]⟩ .f32) (q : IVec ⟨2, ![16384, 4096]⟩ 32) (s : FVec Ideal ⟨1, ![1]⟩ .f32)
    (bias : FVec Ideal ⟨1, ![16384]⟩ .f32) : FVec Ideal ⟨3, ![4, 2048, 16384]⟩ .f32 :=
  fun i => linearAt x q s bias (i 0) (i 1) (i 2)

/-! ## The tiled evaluation, over the flattened operands

Grid point n (of 512, the chunk index fastest) works on row tile (n / 8) % 4, column tile n / 32 and chunk n % 8. -/

/-- The flattened-activation row that tile row r of point n is. -/
def rowOf (n : ℕ) (r : Fin 2048) : Fin 8192 := ⟨n / 8 % 4 * 2048 + r.val, by have := r.isLt; omega⟩

/-- The output feature that tile column c of point n is. -/
def colOf (n : ℕ) (c : Fin 1024) : Fin 16384 := ⟨n / 32 % 16 * 1024 + c.val, by have := c.isLt; omega⟩

/-- The terms of the dot product of flattened-activation row p with dequantised weight row o. -/
def dotTerm (a : FVec Ideal ⟨2, ![8192, 4096]⟩ .bf16) (q : IVec ⟨2, ![16384, 4096]⟩ 32) (s : EReal)
    (p : Fin 8192) (o : Fin 16384) (d : Fin 4096) : EReal :=
  term (a (ix2 p d)) (q (ix2 o d)) s

theorem chunks : 8 * 512 = 4096 := by norm_num

/-- What grid point n adds to entry (r, c) of its tile's accumulator: chunk n % 8 of the dot product. -/
def addend (a : FVec Ideal ⟨2, ![8192, 4096]⟩ .bf16) (q : IVec ⟨2, ![16384, 4096]⟩ 32) (s : EReal)
    (n : ℕ) (y : (⟨2, ![2048, 1024]⟩ : Shape).Idx) : EReal :=
  Cert.Lib.BlockedSum.blockSum chunks (dotTerm a q s (rowOf n (y 0)) (colOf n (y 1))) (n % 8)

/-- The eight points of one tile add up, from zero, to the whole dot product. -/
theorem addends_total (a : FVec Ideal ⟨2, ![8192, 4096]⟩ .bf16) (q : IVec ⟨2, ![16384, 4096]⟩ 32) (s : EReal)
    (n : ℕ) (hn : n % 8 = 0) (r : Fin 2048) (c : Fin 1024) :
    (0 : EReal) + ∑ k ∈ Finset.range (7 + 1), addend a q s (n + k) (ix2 r c)
      = ∑ d : Fin 4096, dotTerm a q s (rowOf n r) (colOf n c) d := by
  rw [zero_add, ← Cert.Lib.BlockedSum.sum_range_blockSum chunks]
  refine Finset.sum_congr rfl fun k hk => ?_
  have hk8 : k < 8 := Finset.mem_range.mp hk
  have e1 : rowOf (n + k) r = rowOf n r := Fin.ext (by show (n + k) / 8 % 4 * 2048 + r.val = n / 8 % 4 * 2048 + r.val; omega)
  have e2 : colOf (n + k) c = colOf n c := Fin.ext (by show (n + k) / 32 % 16 * 1024 + c.val = n / 32 % 16 * 1024 + c.val; omega)
  have e3 : (n + k) % 8 = k := by omega
  show Cert.Lib.BlockedSum.blockSum chunks (dotTerm a q s (rowOf (n + k) r) (colOf (n + k) c)) ((n + k) % 8) = _
  rw [e1, e2, e3]

end Cert.DequantLinear

end
-- ==== Proof.TileValues.lean ====
/-
  What the kernel body stores, read at a row and a column of the output tile, on the extended reals.

  The body works on one [2048, 1024] tile. It dequantises a [1024, 512] panel of integer weight codes (each code read
  signed, times the per-tensor scale), multiplies the [2048, 512] activation panel by the transpose of that panel, and
  adds the product into an accumulator tile; at the last chunk of the contracted axis it adds the bias row. At the ideal
  instance a change of float format is the identity and the product into a zero tile is a plain sum, so entry (r, c) of

    * the reset value is 0,
    * the accumulation step is  acc (r, c) + ∑ b < 512, act (r, b) · (code (c, b) · scale),
    * the closing value is  acc (r, c) + bias (0, c).
-/
import proofs.«174439_j11570641895704_1_alg».proof.Proof.Gen.KernelIdeal.Skeleton
import proofs.«174439_j11570641895704_1_alg».proof.Proof.LibTransposedMatmul
import proofs.«174439_j11570641895704_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx
open Cert.DequantLinear (term)
open scoped BigOperators

/-- The reset value is the zero tile. -/
theorem reset_apply (y : S2048x1024.Idx) : k0_pay1 (F := Ideal) y = 0 := by
  unfold k0_pay1
  rw [shapeCast_self]
  exact Ideal.ofBits_zero_f32

/-- The accumulation step at (r, c): the accumulator's entry plus the 512-term partial dot product of activation row
    r with dequantised weight row c. -/
theorem step_apply (v3 : FVec Ideal S1x1 .f32) (v5 : IVec S1024x512 32) (v10 : FVec Ideal S2048x1024 .f32)
    (v11 : FVec Ideal S2048x512 .bf16) (r : Fin 2048) (c : Fin 1024) :
    k0_pay2 (F := Ideal) v3 v5 v10 v11 (ix2 r c)
      = v10 (ix2 r c) + ∑ b : Fin 512, term (v11 (ix2 r b)) (v5 (ix2 c b)) (v3 (ix2 0 0)) := by
  unfold k0_pay2
  rw [shapeCast_self, shapeCast_self]
  refine congrArg (v10 (ix2 r c) + ·) ?_
  refine (Cert.Lib.TransposedMatmul.matmul_zero_apply _ rfl rfl rfl rfl rfl rfl none v11 _ r c).trans ?_
  have e : extractAt ![0, 0] v3 inpos_S1x1_p0_0 = v3 (ix2 0 0) :=
    congrArg v3 (funext fun a => Fin.ext (by match a with | ⟨0, _⟩ => rfl | ⟨1, _⟩ => rfl))
  refine Finset.sum_congr rfl fun b _ => ?_
  show v11 (ix2 r b) * (FloatOps.sitofp (F := Ideal) .f32 (v5 (ix2 c b)) * extractAt ![0, 0] v3 inpos_S1x1_p0_0) = _
  rw [e]
  rfl

/-- The closing value at (r, c): the accumulator's entry plus the bias row's entry at column c. -/
theorem close_apply (v21 : FVec Ideal S2048x1024 .f32) (v22 : FVec Ideal S1x1024 .f32) (r : Fin 2048) (c : Fin 1024) :
    k0_pay3 (F := Ideal) v21 v22 (ix2 r c) = v21 (ix2 r c) + v22 (ix2 0 c) := by
  unfold k0_pay3
  rw [shapeCast_self]
  exact congrArg (v21 (ix2 r c) + ·) (broadcastTo_1b_ab_apply v22 _ r c)

end Cert.KernelIdeal.Tile

end
-- ==== Proof.Blocks.lean ====
/-
  Where each window's block sits at a grid point, and what it reads.

  The grid has 512 points, the chunk index fastest: point t works on row tile (t / 8) % 4, column tile t / 32 and chunk
  t % 8. Its activation block is rows [2048 · rowtile, +2048) × features [512 · chunk, +512) of the flattened activations;
  its weight block is output features [1024 · coltile, +1024) × the same features of the code matrix; the scale block is
  the one entry; its bias block is columns [1024 · coltile, +1024) of the bias row; and its output block is the
  [2048, 1024] tile at (rowtile, coltile). A block entry at local coordinate y on an axis is the array entry at
  block index × block size + y.
-/
import proofs.«174439_j11570641895704_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps in closed form, decided over the grid. -/
theorem index_facts : ∀ t : Fin cfg0.N,
    win0_0.index t (0 : Fin 2) = t.val / 8 % 4 ∧ win0_0.index t (1 : Fin 2) = t.val % 8
    ∧ win0_1.index t (0 : Fin 2) = t.val / 32 % 16 ∧ win0_1.index t (1 : Fin 2) = t.val % 8
    ∧ win0_2.index t (0 : Fin 2) = 0 ∧ win0_2.index t (1 : Fin 2) = 0
    ∧ win0_3.index t (0 : Fin 2) = 0 ∧ win0_3.index t (1 : Fin 2) = t.val / 32 % 16
    ∧ win0_4.index t (0 : Fin 2) = t.val / 8 % 4 ∧ win0_4.index t (1 : Fin 2) = t.val / 32 % 16 :=
  (by decide +kernel : ∀ t : Fin grid0.N, _)

/-- The activation block at point t, entry (r, b): flattened row p, feature d. -/
theorem act_block (c : Dev nD) (t : Fin cfg0.N) (r : Fin 2048) (b : Fin 512) (p : Fin 8192) (d : Fin 4096)
    (hp : p.val = t.val / 8 % 4 * 2048 + r.val) (hd : d.val = t.val % 8 * 512 + b.val) :
    (iblk m c 0 t : Vec F S2048x512 .bf16) (ix2 r b) = V m c main_v1 (ix2 p d) := by
  obtain ⟨e0, e1, -⟩ := index_facts t
  show V m c main_v1 (((cfg0.win 0).blk t).view.emb (ix2 r b)) = V m c main_v1 (ix2 p d)
  refine congrArg (V m c main_v1) (funext fun a => Fin.ext ?_)
  match a with
  | ⟨0, _⟩ => show win0_0.index t (0 : Fin 2) * 2048 + 1 * r.val = p.val; rw [e0, hp]; omega
  | ⟨1, _⟩ => show win0_0.index t (1 : Fin 2) * 512 + 1 * b.val = d.val; rw [e1, hd]; omega

/-- The weight-code block at point t, entry (k, b): output feature o, feature d. -/
theorem code_block (c : Dev nD) (t : Fin cfg0.N) (k : Fin 1024) (b : Fin 512) (o : Fin 16384) (d : Fin 4096)
    (ho : o.val = t.val / 32 % 16 * 1024 + k.val) (hd : d.val = t.val % 8 * 512 + b.val) :
    (iblk m c 1 t : Vec F S1024x512 .i32) (ix2 k b) = V m c main_arg1 (ix2 o d) := by
  obtain ⟨-, -, e0, e1, -⟩ := index_facts t
  show V m c main_arg1 (((cfg0.win 1).blk t).view.emb (ix2 k b)) = V m c main_arg1 (ix2 o d)
  refine congrArg (V m c main_arg1) (funext fun a => Fin.ext ?_)
  match a with
  | ⟨0, _⟩ => show win0_1.index t (0 : Fin 2) * 1024 + 1 * k.val = o.val; rw [e0, ho]; omega
  | ⟨1, _⟩ => show win0_1.index t (1 : Fin 2) * 512 + 1 * b.val = d.val; rw [e1, hd]; omega

/-- The scale block at any point is the one entry. -/
theorem scale_block (c : Dev nD) (t : Fin cfg0.N) :
    (iblk m c 2 t : Vec F S1x1 .f32) (ix2 0 0) = V m c main_v2 (ix2 0 0) := by
  obtain ⟨-, -, -, -, e0, e1, -⟩ := index_facts t
  show V m c main_v2 (((cfg0.win 2).blk t).view.emb (ix2 0 0)) = V m c main_v2 (ix2 0 0)
  refine congrArg (V m c main_v2) (funext fun a => Fin.ext ?_)
  match a with
  | ⟨0, _⟩ => show win0_2.index t (0 : Fin 2) * 1 + 1 * 0 = 0; rw [e0]
  | ⟨1, _⟩ => show win0_2.index t (1 : Fin 2) * 1 + 1 * 0 = 0; rw [e1]

/-- The bias block at point t, entry (0, k): output feature o of the bias row. -/
theorem bias_block (c : Dev nD) (t : Fin cfg0.N) (k : Fin 1024) (o : Fin 16384)
    (ho : o.val = t.val / 32 % 16 * 1024 + k.val) :
    (iblk m c 3 t : Vec F S1x1024 .f32) (ix2 0 k) = V m c main_v3 (ix2 0 o) := by
  obtain ⟨-, -, -, -, -, -, e0, e1, -⟩ := index_facts t
  show V m c main_v3 (((cfg0.win 3).blk t).view.emb (ix2 0 k)) = V m c main_v3 (ix2 0 o)
  refine congrArg (V m c main_v3) (funext fun a => Fin.ext ?_)
  match a with
  | ⟨0, _⟩ => show win0_3.index t (0 : Fin 2) * 1 + 1 * 0 = 0; rw [e0]
  | ⟨1, _⟩ => show win0_3.index t (1 : Fin 2) * 1024 + 1 * k.val = o.val; rw [e1, ho]; omega

/-- The output block at point t, entry (r, k): flattened row p, output feature o of the result array. -/
theorem out_block (t : Fin cfg0.N) (r : Fin 2048) (k : Fin 1024) (p : Fin 8192) (o : Fin 16384)
    (hp : p.val = t.val / 8 % 4 * 2048 + r.val) (ho : o.val = t.val / 32 % 16 * 1024 + k.val) :
    ((cfg0.win 4).blk t).view.emb (ix2 r k) = (ix2 p o : S8192x16384.Idx) := by
  obtain ⟨-, -, -, -, -, -, -, -, e0, e1⟩ := index_facts t
  refine funext fun a => Fin.ext ?_
  match a with
  | ⟨0, _⟩ => show win0_4.index t (0 : Fin 2) * 2048 + 1 * r.val = p.val; rw [e0, hp]; omega
  | ⟨1, _⟩ => show win0_4.index t (1 : Fin 2) * 1024 + 1 * k.val = o.val; rw [e1, ho]; omega

end Cert.KernelIdeal.Blocks

end
-- ==== Proof.Accumulate.lean ====
/-
  The accumulator tile, point by point: after the last chunk it holds the whole dot product.

  Along the contracted axis the grid visits each output tile at eight consecutive points. At the first the accumulator is
  reset and stepped, at each later one it is stepped from what the point before left; a step adds, at entry (r, c), that
  point's 512-term chunk of the dot product of flattened-activation row  rowOf r  with dequantised weight row  colOf c.
  So after the eighth point the entry is zero plus the eight chunks, which is the whole 4096-term dot product.
-/
import proofs.«174439_j11570641895704_1_alg».proof.Proof.Gen.KernelIdeal.Frame
import proofs.«174439_j11570641895704_1_alg».proof.Proof.Found
import proofs.«174439_j11570641895704_1_alg».proof.Proof.TileValues
import proofs.«174439_j11570641895704_1_alg».proof.Proof.Blocks
import proofs.«174439_j11570641895704_1_alg».proof.Proof.Spec
import Idealize.ShloMosaic.Lib.Pipeline.Value

noncomputable section

namespace Cert.KernelIdeal.Accumulate

open Cert.KernelIdeal Cert.KernelIdeal.Gen Idealize.ShloMosaic Idealize.ShloMosaic.TcCoe Idealize.SL.Sem
open Idealize.ShloMosaic.ValueIdx
open Cert.DequantLinear (term dotTerm addend rowOf colOf chunks)
open scoped BigOperators

variable (m : (ℓ : Loc nD τ sig) → Buf (Elt Ideal) ℓ)

/-- One accumulation step at grid point n, from the accumulator contents acc. -/
def stepAt (c : Dev nD) (n : ℕ) (h : n < cfg0.N) (acc : Vec Ideal S2048x1024 .f32) : Vec Ideal S2048x1024 .f32 :=
  k0_pay2 (F := Ideal) (iblk m c 2 ⟨n, h⟩) (iblk m c 1 ⟨n, h⟩) acc (iblk m c 0 ⟨n, h⟩)

/-- The reset followed by one step. -/
def resetAt (c : Dev nD) (n : ℕ) (h : n < cfg0.N) : Vec Ideal S2048x1024 .f32 :=
  stepAt m c n h (k0_pay1 (F := Ideal))

/-- What the accumulator holds after grid point n. -/
def held (c : Dev nD) (n : ℕ) (h : n < cfg0.N) : Vec Ideal S2048x1024 .f32 := (outsAt0 m c n h).2

/-- At the first chunk of a tile the accumulator is reset and stepped. -/
theorem held_first (c : Dev nD) (n : ℕ) (h : n < cfg0.N) (h0 : n % 8 = 0) : held m c n h = resetAt m c n h := by
  have h1 : ¬(⟨n, h⟩ : Fin cfg0.N).val % 8 = 7 := by dsimp only; omega
  unfold held
  rw [outsAt0_A m c ⟨n, h⟩ h0 h1, Found.acc_first]
  rfl

/-- At every later chunk it is stepped from what the point before left. -/
theorem held_next (c : Dev nD) (n : ℕ) (h : n + 1 < cfg0.N) (hne : ¬(n + 1) % 8 = 0) :
    held m c (n + 1) h = stepAt m c (n + 1) h (held m c n (Nat.lt_of_succ_lt h)) := by
  unfold held
  by_cases h1 : (n + 1) % 8 = 7
  · rw [outsAt0_C m c ⟨n + 1, h⟩ hne h1, Found.acc_last]
    rfl
  · rw [outsAt0_B m c ⟨n + 1, h⟩ hne h1, Found.acc_middle]
    rfl

/-- A step adds the point's chunk of the dot product. -/
theorem stepAt_apply (c : Dev nD) (n : ℕ) (h : n < cfg0.N) (acc : Vec Ideal S2048x1024 .f32) (r : Fin 2048) (k : Fin 1024) :
    stepAt m c n h acc (ix2 r k)
      = acc (ix2 r k) + addend (V m c main_v1) (V m c main_arg1) (V m c main_v2 (ix2 0 0)) n (ix2 r k) := by
  unfold stepAt
  refine (Tile.step_apply (iblk m c 2 ⟨n, h⟩) (iblk m c 1 ⟨n, h⟩) acc (iblk m c 0 ⟨n, h⟩) r k).trans ?_
  refine congrArg (acc (ix2 r k) + ·) ?_
  show _ = Cert.Lib.BlockedSum.blockSum chunks (dotTerm (V m c main_v1) (V m c main_arg1) (V m c main_v2 (ix2 0 0)) (rowOf n r) (colOf n k)) (n % 8)
  have h8 : n % 8 < 8 := Nat.mod_lt n (by norm_num)
  rw [Cert.Lib.BlockedSum.blockSum_of_lt chunks _ (n % 8) h8]
  refine Finset.sum_congr rfl fun b _ => ?_
  have hN : n < 512 := lt_of_lt_of_eq h (show cfg0.N = 512 from N_0)
  rw [Blocks.act_block m c ⟨n, h⟩ r b (rowOf n r) (SumBlocks.idx chunks ⟨n % 8, h8⟩ b) rfl rfl,
    Blocks.code_block m c ⟨n, h⟩ k b (colOf n k) (SumBlocks.idx chunks ⟨n % 8, h8⟩ b) rfl rfl,
    Blocks.scale_block m c ⟨n, h⟩]
  rfl

/-- After the last chunk of a tile the accumulator holds the whole dot product. -/
theorem held_last (c : Dev nD) (t : Fin cfg0.N) (h7 : t.val % 8 = 7) (r : Fin 2048) (k : Fin 1024) :
    (outsAt0 m c t.val t.isLt).2 (ix2 r k)
      = ∑ d : Fin 4096, dotTerm (V m c main_v1) (V m c main_arg1) (V m c main_v2 (ix2 0 0)) (rowOf t.val r) (colOf t.val k) d := by
  have h' : 8 * (t.val / 8) + t.val % 8 < cfg0.N := by rw [Nat.div_add_mod]; exact t.isLt
  have e := Pipeline.eq_accAt_of_mod (held m c) 8 (resetAt m c) (stepAt m c) (held_first m c) (held_next m c)
    (by norm_num) t.val t.isLt h'
  refine (congrFun e (ix2 r k)).trans ?_
  have e2 := Pipeline.accAt_add_apply (resetAt m c) (stepAt m c) (fun _ => (0 : EReal))
    (addend (V m c main_v1) (V m c main_arg1) (V m c main_v2 (ix2 0 0))) (8 * (t.val / 8)) 7
    (fun hb i => by
      obtain ⟨r', k', rfl⟩ : ∃ (r' : Fin 2048) (k' : Fin 1024), i = ix2 r' k' := ⟨i 0, i 1, eq_ix2 i⟩
      refine (stepAt_apply m c _ hb _ r' k').trans ?_
      rw [Tile.reset_apply])
    (fun n hn acc i _ _ => by
      obtain ⟨r', k', rfl⟩ : ∃ (r' : Fin 2048) (k' : Fin 1024), i = ix2 r' k' := ⟨i 0, i 1, eq_ix2 i⟩
      exact stepAt_apply m c n hn acc r' k')
    (t.val % 8) (by omega) h' (ix2 r k)
  refine e2.trans ?_
  rw [h7]
  refine (Cert.DequantLinear.addends_total _ _ _ (8 * (t.val / 8)) (by omega) r k).trans ?_
  have e3 : rowOf (8 * (t.val / 8)) r = rowOf t.val r :=
    Fin.ext (by show 8 * (t.val / 8) / 8 % 4 * 2048 + r.val = t.val / 8 % 4 * 2048 + r.val; omega)
  have e4 : colOf (8 * (t.val / 8)) k = colOf t.val k :=
    Fin.ext (by show 8 * (t.val / 8) / 32 % 16 * 1024 + k.val = t.val / 32 % 16 * 1024 + k.val; omega)
  rw [e3, e4]

end Cert.KernelIdeal.Accumulate

end
-- ==== Proof.LibMergeLeadingAxes.lean ====
/-
  Merging the two leading axes of a rank-3 array into one, and splitting them again, read at coordinates.

  In row-major order entry `(r, t, k)` of an `[a, b, c]` array sits at position `(r * b + t) * c + k`, which is
  where entry `(r * b + t, k)` of an `[n, c]` array sits. So a reshape of `[a, b, c]` to `[n, c]` reads, at row
  `p = r * b + t` and column `k`, the operand at `(r, t, k)`; and the reshape back reads, at `(r, t, k)`, the operand
  at row `p`, column `k`. Stated for any element type and any extents, with indices written by their coordinates;
  the merged extent `n` is a parameter so that a printed literal (`512` for `8 * 64`) unifies.
-/
import Idealize.ShloMosaic.Lib.Pipeline.Value
import Idealize.ShloMosaic.Lib.ValueIdx

namespace Idealize.ShloMosaic.MergeLeadingAxes

open Idealize.ShloMosaic Idealize.ShloMosaic.ValueIdx

variable {α : Type}

/-- An `[a, b, c]` array reshaped to `[n, c]` reads, at `(p, k)` with `p = r * b + t`, the operand at `(r, t, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin a) (t : Fin b) (k : Fin c) (p : Fin n)
    (hp : p.val = r.val * b + t.val) :
    shapeCast ⟨2, ![n, c]⟩ x h (ix2 p k) = x (ix3 r t k) :=
  shapeCast_apply x h _ _ (by
    rw [Shape.rowMajor_val_three, Shape.rowMajor_val_two]
    show (r.val * b + t.val) * c + k.val = p.val * c + k.val
    rw [hp])

/-- An `[n, c]` array reshaped to `[a, b, c]` reads, at `(r, t, k)`, the operand at `(p, k)` with `p = r * b + t`. -/
theorem shapeCast_nc_abc_apply {a b c n : ℕ} (x : (⟨2, ![n, c]⟩ : Shape).Idx → α)
    (h : (⟨2, ![n, c]⟩ : Shape).ShapeCasts ⟨3, ![a, b, c]⟩) (r : Fin a) (t : Fin b) (k : Fin c) (p : Fin n)
    (hp : p.val = r.val * b + t.val) :
    shapeCast ⟨3, ![a, b, c]⟩ x h (ix3 r t k) = x (ix2 p k) :=
  shapeCast_apply x h _ _ (by
    rw [Shape.rowMajor_val_three, Shape.rowMajor_val_two]
    show p.val * c + k.val = (r.val * b + t.val) * c + k.val
    rw [hp])

end Idealize.ShloMosaic.MergeLeadingAxes
-- ==== Proof.HostPrefix.lean ====
/-
  The arrays the tiled region finds, on the extended reals, as entries of the layer's arguments.

  Before the region the host flattens the activations [4, 2048, 4096] to [8192, 4096] (row p = b · 2048 + t) and
  changes their float format, which at the ideal instance is the identity; lays the scale [1] out as [1, 1] and the bias
  [16384] as the row [1, 16384]; and leaves the weight codes as they are.
-/
import proofs.«174439_j11570641895704_1_alg».proof.Proof.Gen.KernelIdeal.Frame
import proofs.«174439_j11570641895704_1_alg».proof.Proof.LibMergeLeadingAxes
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.HostPrefix

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The flattened activations are the activations, their format changed. -/
theorem acts_eq (c : Dev nD) : (V m c main_v1 : S8192x4096.Idx → EReal)
    = truncf (F := Ideal) .bf16 (shapeCast S8192x4096 (m ((c : Thread nD τ).loc main_arg0)) shapeCasts_S4x2048x4096_S8192x4096) bitsLt_bf16_f32 := by
  show StableHlo.after hostOps0 (fun b => m (c, b)) (Proc.devRef .tc main_v1) = _
  after_results
  rfl

/-- Flattened row p = b · 2048 + t, feature d, is the activation at (b, t, d). -/
theorem acts_apply (c : Dev nD) (b : Fin 4) (t : Fin 2048) (d : Fin 4096) (p : Fin 8192) (hp : p.val = b.val * 2048 + t.val) :
    (V m c main_v1 : S8192x4096.Idx → EReal) (ix2 p d) = m ((c : Thread nD τ).loc main_arg0) (ix3 b t d) := by
  rw [acts_eq]
  exact MergeLeadingAxes.shapeCast_abc_nc_apply (m ((c : Thread nD τ).loc main_arg0)) shapeCasts_S4x2048x4096_S8192x4096 b t d p hp

/-- The scale laid out as [1, 1] is the scale. -/
theorem scale_eq (c : Dev nD) : (V m c main_v2 : S1x1.Idx → EReal)
    = shapeCast S1x1 (m ((c : Thread nD τ).loc main_arg2)) shapeCasts_S1_S1x1 := by
  show StableHlo.after hostOps0 (fun b => m (c, b)) (Proc.devRef .tc main_v2) = _
  after_results
  rfl

theorem scale_apply (c : Dev nD) :
    (V m c main_v2 : S1x1.Idx → EReal) (ix2 0 0) = m ((c : Thread nD τ).loc main_arg2) (ix1 0) := by
  rw [scale_eq]
  exact shapeCast_a_1a_apply (m ((c : Thread nD τ).loc main_arg2)) shapeCasts_S1_S1x1 0 0

/-- The bias laid out as a row is the bias. -/
theorem bias_eq (c : Dev nD) : (V m c main_v3 : S1x16384.Idx → EReal)
    = shapeCast S1x16384 (m ((c : Thread nD τ).loc main_arg3)) shapeCasts_S16384_S1x16384 := by
  show StableHlo.after hostOps0 (fun b => m (c, b)) (Proc.devRef .tc main_v3) = _
  after_results
  rfl

theorem bias_apply (c : Dev nD) (o : Fin 16384) :
    (V m c main_v3 : S1x16384.Idx → EReal) (ix2 0 o) = m ((c : Thread nD τ).loc main_arg3) (ix1 o) := by
  rw [bias_eq]
  exact shapeCast_a_1a_apply (m ((c : Thread nD τ).loc main_arg3)) shapeCasts_S16384_S1x16384 0 o

end Cert.KernelIdeal.HostPrefix

end
-- ==== Proof.Result.lean ====
/-
  The kernel's result array on the extended reals: the linear layer of its arguments.

  Each output tile is written back once, after the last chunk, holding the accumulated dot products plus the bias row;
  the 64 tiles cover the flat [8192, 16384] result, so the flat result at (p, o) is the dot product of flattened-activation
  row p with dequantised weight row o, plus bias o. The program's last line lays the flat result out as [4, 2048, 16384],
  entry (b, t, o) read at row p = b · 2048 + t; through the host lines before the region that is the layer at (b, t, o).
-/
import proofs.«174439_j11570641895704_1_alg».proof.Proof.Gen.KernelIdeal.Frame
import proofs.«174439_j11570641895704_1_alg».proof.Proof.Accumulate
import proofs.«174439_j11570641895704_1_alg».proof.Proof.HostPrefix
import proofs.«174439_j11570641895704_1_alg».proof.Proof.LibMergeLeadingAxes
import Idealize.ShloMosaic.Lib.Pipeline.Value
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.DequantLinear (term dotTerm rowOf colOf linear linearAt)
open scoped BigOperators

variable (m : (ℓ : Loc nD τ sig) → Buf (Elt Ideal) ℓ) (ρ : Dev nD → PrngReg)

/-- The flat result over the arrays the region finds: dot product plus bias. -/
def flat (c : Dev nD) : S8192x16384.Idx → EReal := fun i =>
  (∑ d : Fin 4096, dotTerm (V m c main_v1) (V m c main_arg1) (V m c main_v2 (ix2 0 0)) (i 0) (i 1) d)
    + V m c main_v3 (ix2 0 (i 1))

/-- At its last chunk a tile's output block is its accumulator plus the bias row. -/
theorem out_last_eq (c : Dev nD) (t : Fin cfg0.N) (h0 : ¬t.val % 8 = 0) (h7 : t.val % 8 = 7) :
    (outsAt0 m c t.val t.isLt).1 = k0_pay3 (F := Ideal) (outsAt0 m c t.val t.isLt).2 (iblk m c 3 t) := by
  rw [outsAt0_C m c t h0 h7, Found.out_last, Found.acc_last]

/-- What a writing point writes back is its block of the flat result. -/
theorem flushed_eq (c : Dev nD) (t : Fin cfg0.N) (hf : (cfg0.win 4).flush t = true) :
    (dats m 0 c).flushed 4 t = ((cfg0.win 4).blk t).view.read (Elt Ideal) (flat m c) := by
  have h7 : t.val % 8 = 7 := (flush0_4 t).mp hf
  have h0 : ¬t.val % 8 = 0 := by omega
  show (cfg0.win 4).cut (grid0.coords t) ((dats m 0 c).after 4 t) = _
  rw [after0_4, out_last_eq m c t h0 h7]
  funext y
  obtain ⟨r, k, rfl⟩ : ∃ (r : Fin 2048) (k : Fin 1024), y = ix2 r k := ⟨y 0, y 1, eq_ix2 y⟩
  show k0_pay3 (F := Ideal) (outsAt0 m c t.val t.isLt).2 (iblk m c 3 t) (ix2 r k)
    = flat m c (((cfg0.win 4).blk t).view.emb (ix2 r k))
  rw [Blocks.out_block t r k (rowOf t.val r) (colOf t.val k) rfl rfl]
  refine (Tile.close_apply _ _ r k).trans ?_
  rw [Accumulate.held_last m c t h7 r k, Blocks.bias_block m c t k (colOf t.val k) rfl]
  rfl

/-- An index of the flat result is in point t's block iff each coordinate is in the block's range on its axis. -/
theorem mem_blk (t : Fin cfg0.N) (i : S8192x16384.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v4).slice (win0_4.rect t)).set ↔ _
  rw [View.set_slice_whole, Rect.mem_set_unit]
  exact Iff.rfl

/-- The tile holding row a and column b is written back at its last chunk. -/
theorem tile_point (a b : ℕ) (ha : a < 8192) (hb : b < 16384) :
    ∃ n, n < 512 ∧ n % 8 = 7 ∧ (n / 8 % 4 * 2048 ≤ a ∧ a < n / 8 % 4 * 2048 + 2048)
      ∧ (n / 32 % 16 * 1024 ≤ b ∧ b < n / 32 % 16 * 1024 + 1024) :=
  ⟨(b / 1024 * 4 + a / 2048) * 8 + 7, by omega, by omega, by omega, by omega⟩

/-- Every index of the flat result is in some writing point's block. -/
theorem cover (i : S8192x16384.Idx) :
    ∃ t : Fin cfg0.N, (cfg0.win 4).flush t = true ∧ i ∈ ((cfg0.win 4).blk t).view.set := by
  have hN : cfg0.N = 512 := N_0
  obtain ⟨n, hn, h7, hr, hc⟩ := tile_point (i 0).val (i 1).val (i 0).isLt (i 1).isLt
  have hn' : n < cfg0.N := lt_of_lt_of_eq hn hN.symm
  refine ⟨⟨n, hn'⟩, (flush0_4 _).mpr h7, ?_⟩
  rw [mem_blk]
  obtain ⟨-, -, -, -, -, -, -, -, e0, e1⟩ := Blocks.index_facts ⟨n, hn'⟩
  intro a
  match a with
  | ⟨0, _⟩ =>
    show win0_4.index ⟨n, hn'⟩ (0 : Fin 2) * 2048 ≤ (i 0).val ∧ (i 0).val < win0_4.index ⟨n, hn'⟩ (0 : Fin 2) * 2048 + 2048
    rw [e0]; exact hr
  | ⟨1, _⟩ =>
    show win0_4.index ⟨n, hn'⟩ (1 : Fin 2) * 1024 ≤ (i 1).val ∧ (i 1).val < win0_4.index ⟨n, hn'⟩ (1 : Fin 2) * 1024 + 1024
    rw [e1]; exact hc

/-- So the flat result array ends holding dot products plus bias. -/
theorem final (c : Dev nD) : (dats m 0 c).arrAt 4 cfg0.N = flat m c :=
  (dats m 0 c).arrAt_eq_of_cover 4 (flat m c) (flushed_eq m c) cover

/-- The program's result is the flat result laid out as [4, 2048, 16384]. -/
theorem tail_eq (c : Dev nD) :
    Pipeline.afterTail₀ cfgs (dats m) 0 (V0 m) [hostOps1] c main_v5
      = shapeCast S4x2048x16384 (flat m c) shapeCasts_S8192x16384_S4x2048x16384 := by
  unfold Pipeline.afterTail₀
  show StableHlo.after hostOps1 _ (Proc.devRef .tc main_v5) = _
  after_results
  rw [(Pipeline.withArrays_arr spec0 launch0.win.arr_inj c _ _ 4).trans (final m c)]
  rfl

/-- Read at (b, t, o) through the host lines before the region, that is the layer. -/
theorem layout_eq (c : Dev nD) :
    shapeCast S4x2048x16384 (flat m c) shapeCasts_S8192x16384_S4x2048x16384
      = linear (m ((c : Thread nD τ).loc main_arg0)) (m ((c : Thread nD τ).loc main_arg1))
          (m ((c : Thread nD τ).loc main_arg2)) (m ((c : Thread nD τ).loc main_arg3)) := by
  funext i
  obtain ⟨b, s, o, rfl⟩ : ∃ (b : Fin 4) (s : Fin 2048) (o : Fin 16384), i = ix3 b s o := ⟨i 0, i 1, i 2, eq_ix3 i⟩
  have hp : (⟨b.val * 2048 + s.val, by have := b.isLt; have := s.isLt; omega⟩ : Fin 8192).val = b.val * 2048 + s.val := rfl
  refine (MergeLeadingAxes.shapeCast_nc_abc_apply (flat m c) shapeCasts_S8192x16384_S4x2048x16384 b s o _ hp).trans ?_
  show (∑ d : Fin 4096, term (V m c main_v1 (ix2 _ d)) (V m c main_arg1 (ix2 o d)) (V m c main_v2 (ix2 0 0))) + V m c main_v3 (ix2 0 o)
    = (∑ d : Fin 4096, term (m ((c : Thread nD τ).loc main_arg0) (ix3 b s d)) (m ((c : Thread nD τ).loc main_arg1) (ix2 o d)) (m ((c : Thread nD τ).loc main_arg2) (ix1 0)))
      + m ((c : Thread nD τ).loc main_arg3) (ix1 o)
  rw [HostPrefix.bias_apply, HostPrefix.scale_apply, V_main_arg1]
  refine congrArg (· + m ((c : Thread nD τ).loc main_arg3) (ix1 o)) (Finset.sum_congr rfl fun d _ => ?_)
  rw [HostPrefix.acts_apply m c b s d _ hp]

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v5)
        = linear (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v5 (Pipeline.mem_restRefs_of main_v5 (by decide) (by decide))).trans ((tail_eq m c).trans (layout_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.Reference.lean ====
/-
  The reference on the extended reals is the linear layer of its arguments.

  The reference converts the weight codes to floats, multiplies every one by the scale (broadcast from its one entry),
  contracts the activations' feature axis with the weight's feature axis in one product, and adds the bias broadcast
  over batch and position. Read at (b, t, o) that is  ∑ d, x (b, t, d) · (q (o, d) · s) + bias o.
-/
import proofs.«174439_j11570641895704_1_alg».proof.Proof.Gen.ReferenceIdeal.Read
import proofs.«174439_j11570641895704_1_alg».proof.Proof.Spec

noncomputable section

namespace Cert.ReferenceIdeal.Layer

open Cert.ReferenceIdeal Cert.ReferenceIdeal.Gen Cert.ReferenceIdeal.Read Idealize.ShloMosaic Idealize.ShloMosaic.ValueIdx
open Cert.DequantLinear (term linear linearAt)
open scoped BigOperators

/-- The reference's result is the layer. -/
theorem result_eq (x : (⟨S4x2048x4096, .f32⟩ : BufTy).Contents (Elt Ideal)) (q : (⟨S16384x4096, .i32⟩ : BufTy).Contents (Elt Ideal))
    (s : (⟨S1, .f32⟩ : BufTy).Contents (Elt Ideal)) (bias : (⟨S16384, .f32⟩ : BufTy).Contents (Elt Ideal)) :
    val_main_v7 (F := Ideal) x q s bias = linear x q s bias := by
  funext i
  obtain ⟨b, t, o, rfl⟩ : ∃ (b : Fin 4) (t : Fin 2048) (o : Fin 16384), i = ix3 b t o := ⟨i 0, i 1, i 2, eq_ix3 i⟩
  have el : ∀ d : Fin 4096, lidx_main_v4 (ix3 b t o) d = ix3 b t d := fun d =>
    funext fun a => Fin.ext (by match a with | ⟨0, _⟩ => rfl | ⟨1, _⟩ => rfl | ⟨2, _⟩ => rfl)
  have er : ∀ d : Fin 4096, ridx_main_v4 (ix3 b t o) d = ix2 o d := fun d =>
    funext fun a => Fin.ext (by match a with | ⟨0, _⟩ => rfl | ⟨1, _⟩ => rfl)
  have es : ∀ j : S16384x4096.Idx, idx_main_v1 (idx_main_v2 j) = ix1 0 := fun j =>
    funext fun a => Fin.ext (by match a with | ⟨0, _⟩ => rfl)
  have eb : idx_main_v5 (idx_main_v6 (ix3 b t o)) = ix1 o :=
    funext fun a => Fin.ext (by match a with | ⟨0, _⟩ => rfl)
  rw [val_main_v7_apply, val_main_v4_apply, val_main_v6_apply, val_main_v5_apply, eb]
  show (∑ d : Fin 4096, x (lidx_main_v4 (ix3 b t o) d) * val_main_v3 (F := Ideal) q s (ridx_main_v4 (ix3 b t o) d)) + bias (ix1 o)
    = (∑ d : Fin 4096, term (x (ix3 b t d)) (q (ix2 o d)) (s (ix1 0))) + bias (ix1 o)
  refine congrArg (· + bias (ix1 o)) (Finset.sum_congr rfl fun d _ => ?_)
  rw [el, er, val_main_v3_apply, val_main_v0_apply, val_main_v2_apply, val_main_v1_apply, es]
  rfl

end Cert.ReferenceIdeal.Layer

end
-- ==== Proof.lean ====
/-
  The certificate of a tiled dequantise-and-multiply kernel against its jnp reference, on the extended reals.

  Both programs compute the linear layer  y (b, t, o) = ∑ d, x (b, t, d) · (q (o, d) · s) + bias o  over integer weight
  codes q with one scale s (Spec.lean). The reference does it in one contraction (Reference.lean, over the generated
  run of the reference read one operation at a time). The kernel flattens the activations, visits each [2048, 1024]
  output tile at eight consecutive grid points, one per 512-feature chunk of the contraction, carrying an accumulator
  tile between them — reset at the first, stepped at each, closed with the bias at the last — and lays the flat result
  out again (Found.lean: what each control case leaves; TileValues.lean: the stored values at an entry; Blocks.lean:
  where the blocks sit; Accumulate.lean: the accumulator after the last chunk is the whole dot product; Result.lean: the
  result array). The two agree because a finite sum on the extended reals may be taken in consecutive chunks, which
  uses only associativity and commutativity of addition: the finiteness of the inputs is never used. A change of float
  format is the identity on the extended reals, and no operation of the kernel is rewritten in passing to them: the
  kernel read there is its own text.
-/
import proofs.«174439_j11570641895704_1_alg».proof.Defs
import proofs.«174439_j11570641895704_1_alg».proof.Proof.Gen.Kernel
import proofs.«174439_j11570641895704_1_alg».proof.Proof.Gen.Kernel.Frame
import proofs.«174439_j11570641895704_1_alg».proof.Proof.Gen.KernelIdeal
import proofs.«174439_j11570641895704_1_alg».proof.Proof.Gen.KernelIdeal.Frame
import proofs.«174439_j11570641895704_1_alg».proof.Proof.Gen.ReferenceIdeal
import proofs.«174439_j11570641895704_1_alg».proof.Proof.Gen.ReferenceIdeal.Run
import proofs.«174439_j11570641895704_1_alg».proof.Proof.Gen.ReferenceIdeal.Read
import proofs.«174439_j11570641895704_1_alg».proof.Proof.Gen.Pre_finite_inputs
import proofs.«174439_j11570641895704_1_alg».proof.Proof.Result
import proofs.«174439_j11570641895704_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel is rewritten in passing to the extended reals. -/
theorem preserves : Cert.preserves_Kernel_KernelIdeal := trivial

/-- On the extended reals the kernel's result array ends at the linear layer of its arguments, and the reference's at
    the same layer of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v7_eq _ _ _ _).trans (Cert.ReferenceIdeal.Layer.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
